-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x2 : Shape := ⟨2, ![128, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_arg5 : FVec F S2 .f32) (main_arg6 : FVec F S128x2 .f32) (main_v13 : IVec S_ 1) (main_v16 : IVec S256x2 1) : IVec S_ 1 :=
  let main_c_5 : IVec S_ 1 := constantI S_ 1 1#1
  let main_v17 : IVec S_ 1 := (fun x v => Host.reduce IntOp.andi x v reducesTo_S256x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S128x128 .f32) (main_arg3 : FVec F S128 .f32) (main_arg4 : FVec F S256x2 .f32) (main_arg5 : FVec F S2 .f32) (main_arg6 : FVec F S128x2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x2 .f32 := Host.absf main_arg4
  let main_cst_4 : FVec F S_ .f32 := constant S_ .f32 0x7F800000#32
  let main_v15 : FVec F S256x2 .f32 := broadcastInDim S256x2 ![] bcast_S_S256x2 main_cst_4
  let main_v16 : IVec S256x2 1 := cmpf .olt main_v14 main_v15
  fn_part1 (F := F) main_arg5 main_arg6 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x2 : Shape := ⟨2, ![128, 2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S2000x128 : Shape := ⟨2, ![2000, 128]⟩
abbrev S1600000x128 : Shape := ⟨2, ![1600000, 128]⟩
abbrev S1x128 : Shape := ⟨2, ![1, 128]⟩
abbrev S2000x1 : Shape := ⟨2, ![2000, 1]⟩
abbrev S50000x2 : Shape := ⟨2, ![50000, 2]⟩
abbrev S1600000x2 : Shape := ⟨2, ![1600000, 2]⟩
abbrev S1x2 : Shape := ⟨2, ![1, 2]⟩

abbrev nBuf : Space → Nat
  | .hbm => 100
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S256x2, .f32⟩
  | .hbm, ⟨5, _⟩ => ⟨S2, .f32⟩
  | .hbm, ⟨6, _⟩ => ⟨S128x2, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S1600000x1, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S50000x128, .f32⟩
  | .hbm, ⟨59, _⟩ => ⟨S1600000x1, .i32⟩
  | .hbm, ⟨60, _⟩ => ⟨S50000x128, .f32⟩
  | .hbm, ⟨61, _⟩ => ⟨S1x128, .f32⟩
  | .hbm, ⟨62, _⟩ => ⟨S128x2, .f32⟩
  | .hbm, ⟨63, _⟩ => ⟨S128x2, .f32⟩
  | .hbm, ⟨64, _⟩ => ⟨S_, .i32⟩
  | .hbm, ⟨65, _⟩ => ⟨S_, .f32⟩
  | .hbm, ⟨66, _⟩ => ⟨S128x128, .f32⟩
  | .hbm, ⟨67, _⟩ => ⟨S_, .i32⟩
  | .hbm, ⟨68, _⟩ => ⟨S_, .f32⟩
  | .hbm, ⟨69, _⟩ => ⟨S128x128, .f32⟩
  | .hbm, ⟨70, _⟩ => ⟨S_, .i32⟩
  | .hbm, ⟨71, _⟩ => ⟨S_, .f32⟩
  | .hbm, ⟨72, _⟩ => ⟨S128x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x2, .f32⟩
  | .hbm, ⟨77, _⟩ => ⟨S50000x2, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x2, .f32⟩
  | .hbm, ⟨87, _⟩ => ⟨S1600000x2, .f32⟩
  | .hbm, ⟨88, _⟩ => ⟨S1600000x2, .f32⟩
  | .hbm, ⟨89, _⟩ => ⟨S_, .f32⟩
  | .hbm, ⟨90, _⟩ => ⟨S50000x2, .f32⟩
  | .hbm, ⟨91, _⟩ => ⟨S1600000x1, .i32⟩
  | .hbm, ⟨92, _⟩ => ⟨S50000x2, .f32⟩
  | .hbm, ⟨93, _⟩ => ⟨S50000x2, .f32⟩
  | .hbm, ⟨94, _⟩ => ⟨S50000x2, .f32⟩
  | .hbm, ⟨95, _⟩ => ⟨S50000x2, .f32⟩
  | .hbm, ⟨96, _⟩ => ⟨S1x2, .f32⟩
  | .hbm, ⟨97, _⟩ => ⟨S50000x2, .f32⟩
  | .hbm, ⟨98, _⟩ => ⟨S50000x2, .f32⟩
  | .hbm, ⟨99, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_call0_v0 : Ref sig .tc := ⟨.hbm, 65, rfl⟩
abbrev main_v46 : Ref sig .tc := ⟨.hbm, 66, rfl⟩
abbrev main_c_10 : Ref sig .tc := ⟨.hbm, 67, rfl⟩
abbrev main_call1_v0 : Ref sig .tc := ⟨.hbm, 68, rfl⟩
abbrev main_v47 : Ref sig .tc := ⟨.hbm, 69, rfl⟩
abbrev main_c_11 : Ref sig .tc := ⟨.hbm, 70, rfl⟩
abbrev main_call2_v0 : Ref sig .tc := ⟨.hbm, 71, rfl⟩
abbrev main_v48 : Ref sig .tc := ⟨.hbm, 72, rfl⟩
abbrev main_v49_0 : Ref sig .tc := ⟨.hbm, 73, rfl⟩
abbrev main_v49_1 : Ref sig .tc := ⟨.hbm, 74, rfl⟩
abbrev main_v49_2 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S128_S1x128 : S128.ShapeCasts S1x128
  slices_S256x2_S128x2_0_0 : S256x2.Slices ![0, 0] S128x2
  slices_S256x2_S128x2_128_0 : S256x2.Slices ![128, 0] S128x2
  pads_S128x2_S128x128_000_01260 : S128x2.Pads (![0, 0] : Fin 2 → Nat) ![0, 126] ![0, 0] S128x128
  h_S_ : 0 < S_.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  slices_S50000x128_S50000x2_0_0 : S50000x128.Slices ![0, 0] S50000x2
  bcast_S1600000x1_S1600000x2_0_1 : S1600000x1.BroadcastsInDim S1600000x2 (![0, 1] : Fin 2 → Fin S1600000x2.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  shapeCasts_S2_S1x2 : S2.ShapeCasts S1x2
  bcast_S1x2_S50000x2_0_1 : S1x2.BroadcastsInDim S50000x2 (![0, 1] : Fin 2 → Fin S50000x2.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x2_S1600000x1_S1600000x2_1_0_n_n_0_1_12_wf : GatherDims.WF S50000x2 S1600000x1 S1600000x2 [1] [0] [] [0] [] 1 ![1, 2]
  scatter_S50000x2_S1600000x1_S1600000x2_1_0_0_1_wf : ScatterDims.WF S50000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def scatter_S50000x2_S1600000x1_S1600000x2_1_0_0_1 : ScatterDims S50000x2 S1600000x1 S1600000x2 where
  updateWindowDims := [1]
  insertedWindowDims := [0]
  scatterDimsToOperandDims := [0]
  indexVectorDim := 1
  wf := scatter_S50000x2_S1600000x1_S1600000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v49_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v49_1) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v49_2) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S256x2 : Shape := ⟨2, ![256, 2]⟩
abbrev S2 : Shape := ⟨1, ![2]⟩
abbrev S128x2 : Shape := ⟨2, ![128, 2]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x256 : Shape := ⟨2, ![50000, 256]⟩
abbrev S50000x2 : Shape := ⟨2, ![50000, 2]⟩
abbrev S1600000x2 : Shape := ⟨2, ![1600000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S256x2, .f32⟩
  | 5 => ⟨S2, .f32⟩
  | 6 => ⟨S128x2, .f32⟩
  | 7 => ⟨S1x1600000, .i32⟩
  | 8 => ⟨S1600000, .i32⟩
  | 9 => ⟨S1x1600000, .i32⟩
  | 10 => ⟨S1600000, .i32⟩
  | 11 => ⟨S50000x128, .f32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S50000x128, .f32⟩
  | 57 => ⟨S1600000x1, .i32⟩
  | 58 => ⟨S50000x128, .f32⟩
  | 59 => ⟨S50000, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x256, .f32⟩
  | 71 => ⟨S50000x2, .f32⟩
  | 72 => ⟨S_, .f32⟩
  | 73 => ⟨S1600000, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S50000, .f32⟩
  | 80 => ⟨S50000, .f32⟩
  | 81 => ⟨S_, .f32⟩
  | 82 => ⟨S50000, .f32⟩
  | 83 => ⟨S50000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x2, .f32⟩
  | 112 => ⟨S1600000x1, .f32⟩
  | 113 => ⟨S1600000x2, .f32⟩
  | 114 => ⟨S1600000x2, .f32⟩
  | 115 => ⟨S_, .f32⟩
  | 116 => ⟨S50000x2, .f32⟩
  | 117 => ⟨S1600000x1, .i32⟩
  | 118 => ⟨S50000x2, .f32⟩
  | 119 => ⟨S50000, .f32⟩
  | 120 => ⟨S50000x1, .f32⟩
  | 121 => ⟨S50000x2, .f32⟩
  | 122 => ⟨S50000x2, .f32⟩
  | 123 => ⟨S50000x2, .f32⟩
  | 124 => ⟨S1x2, .f32⟩
  | 125 => ⟨S50000x2, .f32⟩
  | 126 => ⟨S50000x2, .f32⟩
  | 127 => ⟨S50000x2, .f32⟩
  | _ => ⟨S50000x128, .f32⟩

abbrev hbmTy0_1 (i : Nat) : BufTy := match i % 128 with
  | 0 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call0_cst : Ref sig .tc := ⟨.hbm, 67, rfl⟩
abbrev main_call0_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_17 : Ref sig .tc := ⟨.hbm, 103, rfl⟩
abbrev main_v75 : Ref sig .tc := ⟨.hbm, 104, rfl⟩
abbrev main_v76 : Ref sig .tc := ⟨.hbm, 105, rfl⟩
abbrev main_c_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S1600000x1_S1600000x2_0_1 : S1600000x1.BroadcastsInDim S1600000x2 (![0, 1] : Fin 2 → Fin S1600000x2.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x256_S256x2_S50000x2_1_0_0_1_n_n_wf : DotDims.WF S50000x256 S256x2 S50000x2 [1] [0] [0] [1] [] []
  gather_S50000x2_S1600000x1_S1600000x2_1_0_n_n_0_1_12_wf : GatherDims.WF S50000x2 S1600000x1 S1600000x2 [1] [0] [] [0] [] 1 ![1, 2]
  scatter_S50000x2_S1600000x1_S1600000x2_1_0_0_1_wf : ScatterDims.WF S50000x2 S1600000x1 S1600000x2 [1] [0] [0] 1
  dot_S50000x128_S128x2_S50000x2_1_0_0_1_n_n_wf : DotDims.WF S50000x128 S128x2 S50000x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def scatter_S50000x2_S1600000x1_S1600000x2_1_0_0_1 : ScatterDims S50000x2 S1600000x1 S1600000x2 where
  updateWindowDims := [1]
  insertedWindowDims := [0]
  scatterDimsToOperandDims := [0]
  indexVectorDim := 1
  wf := scatter_S50000x2_S1600000x1_S1600000x2_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The kernel program's run, with its result named.

  The program is ten segments: a stretch of host operations, the first tiled product, six short stretches (the
  neighbour sums of the first layer and the zero-padded weights), the fused second kernel, and a last stretch that
  gathers, sums over neighbours and adds the bias and the skip term. The contents of every buffer at each boundary
  are a fold from the launch memory: a stretch applies its operations, a kernel leaves each of its arrays at what its
  write-backs make of it and every other buffer alone. Every weakly fair execution terminates without a fault, the
  result buffer ends at the fold's last contents, and the seven argument arrays end as launched.
-/
import proofs.«108987_j15556371546755_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents and each argument array as launched. -/
theorem run_result : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.RunValue

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Bodies.lean ====
/-
  The two kernel bodies, read at one entry over the extended reals.

  Each body works on a tile of 2000 rows. The first stores the product of its tile of `x` with the whole of `W1`.
  The second stores three tiles: the hidden layer `h = max((agg + hlin · s) + b, 0)`, where `s` is a column with one
  scale per row and `b` a row with one bias per column; the sum of two products `x · A + h · B`; and a third product
  `x · C`. Changing the float format of an operand is the identity on extended reals, and a product accumulated into
  the zero tile is the plain contraction, so at row `p` and column `q` each product is the sum over `k` of
  `l (p, k) · r (k, q)`.
-/
import proofs.«108987_j15556371546755_2_alg».proof.Proof.Gen.KernelIdeal.Skeleton
import proofs.«108987_j15556371546755_2_alg».proof.Proof.LibDotSum
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Bodies

open Idealize.ShloMosaic Idealize.ShloMosaic.ValueIdx Cert.KernelIdeal Cert.KernelIdeal.Gen

/-- The dimension record of every product in the two bodies: a 2000 × 128 tile times a 128 × 128 matrix. -/
abbrev dTile : DotDims S2000x128 S128x128 S2000x128 := dot_S2000x128_S128x128_S2000x128_1_0_0_1_n_n

/-! ## Where the record reads its operands -/

theorem tile_l0 (i : S2000x128.Idx) (q : dTile.contr.Idx) : (dTile.lhsIdx i q 0).val = (i 0).val := by
  unfold DotDims.lhsIdx
  rw [dif_neg (show ¬(0 : Fin S2000x128.rank) ∈ dTile.lhsBatch by decide),
    dif_pos (show (0 : Fin S2000x128.rank) ∈ dTile.lhsNonContracting by decide)]
  rfl

theorem tile_l1 (i : S2000x128.Idx) (q : dTile.contr.Idx) : (dTile.lhsIdx i q 1).val = (q ⟨0, by decide⟩).val :=
  dTile.lhsIdx_val_of_single rfl i q

theorem tile_r0 (i : S2000x128.Idx) (q : dTile.contr.Idx) : (dTile.rhsIdx i q 0).val = (q ⟨0, by decide⟩).val :=
  dTile.rhsIdx_val_of_single rfl i q

theorem tile_r1 (i : S2000x128.Idx) (q : dTile.contr.Idx) : (dTile.rhsIdx i q 1).val = (i 1).val := by
  unfold DotDims.rhsIdx
  rw [dif_neg (show ¬(1 : Fin S128x128.rank) ∈ dTile.rhsBatch by decide),
    dif_pos (show (1 : Fin S128x128.rank) ∈ dTile.rhsNonContracting by decide)]
  rfl

/-- A tile times a matrix, accumulated into the zero tile, at `(p, q)`: the sum over `k` of `l (p, k) · r (k, q)`. -/
theorem tileProduct_apply (l : FVec Ideal S2000x128 .bf16) (r : FVec Ideal S128x128 .bf16) (p : Fin 2000) (q : Fin 128) :
    matmul (F := Ideal) dTile none l r (constant S2000x128 .f32 0x00000000#32) (ix2 p q)
      = ∑ k : Fin 128, l (ix2 p k) * r (ix2 k q) :=
  (Ideal.matmul_constant_zero_apply dTile none l r (ix2 p q)).trans
    (Cert.LibDotSum.sum_dot dTile rfl rfl tile_l0 tile_l1 tile_r0 tile_r1 l r p q)

/-! ## The first body -/

/-- The first body's stored tile at `(p, q)`: the contraction of row `p` of the `x` tile with column `q` of `W1`. -/
theorem first_apply (a : Vec Ideal S2000x128 .f32) (w : Vec Ideal S128x128 .f32) (p : Fin 2000) (q : Fin 128) :
    k0_pay1 (F := Ideal) a w (ix2 p q) = ∑ k : Fin 128, a (ix2 p k) * w (ix2 k q) := by
  unfold k0_pay1
  exact tileProduct_apply _ _ p q

/-! ## The second body -/

/-- The hidden layer at `(p, q)`: row `p`'s scale multiplies the linear part, column `q`'s bias is added last, and the
    result is clipped below at the zero word. -/
theorem hidden_apply (s : Vec Ideal S2000x1 .f32) (agg hlin : Vec Ideal S2000x128 .f32) (b : Vec Ideal S1x128 .f32)
    (p : Fin 2000) (q : Fin 128) :
    k1_pay1 (F := Ideal) s agg hlin b (ix2 p q)
      = FloatOps.maximumf (FloatOps.addf (FloatOps.addf (agg (ix2 p q)) (FloatOps.mulf (hlin (ix2 p q)) (s (ix2 p (0 : Fin 1)))))
          (b (ix2 (0 : Fin 1) q))) (Scalar.ofBits (F := Ideal) .f32 0x00000000#32) := by
  have e1 : @broadcastTo S2000x1 (Elt Ideal .f32) S2000x128 s broadcasts_S2000x1_S2000x128 (ix2 p q) = s (ix2 p (0 : Fin 1)) :=
    broadcastTo_apply s _ (ix2 p q) (ix2 p (0 : Fin 1)) (fun a => by
      match a with
      | ⟨0, _⟩ => rfl
      | ⟨1, _⟩ => rfl)
  have e2 : @broadcastTo S1x128 (Elt Ideal .f32) S2000x128 b broadcasts_S1x128_S2000x128 (ix2 p q) = b (ix2 (0 : Fin 1) q) :=
    broadcastTo_apply b _ (ix2 p q) (ix2 (0 : Fin 1) q) (fun a => by
      match a with
      | ⟨0, _⟩ => rfl
      | ⟨1, _⟩ => rfl)
  unfold k1_pay1
  rw [← e1, ← e2]
  simp only [shapeCast_self]
  rfl

/-- The second stored tile at `(p, q)`: `x · A` plus `h · B`, with `h` the hidden layer of the same rows. -/
theorem pair_apply (s : Vec Ideal S2000x1 .f32) (agg hlin : Vec Ideal S2000x128 .f32) (b : Vec Ideal S1x128 .f32)
    (x : Vec Ideal S2000x128 .f32) (wa wb : Vec Ideal S128x128 .f32) (p : Fin 2000) (q : Fin 128) :
    k1_pay3 (F := Ideal) s agg hlin b x wa wb (ix2 p q)
      = (∑ k : Fin 128, x (ix2 p k) * wa (ix2 k q))
        + ∑ k : Fin 128, k1_pay1 (F := Ideal) s agg hlin b (ix2 p k) * wb (ix2 k q) := by
  unfold k1_pay3 k1_pay2
  simp only [shapeCast_self]
  exact congrArg₂ (fun a b : EReal => a + b) (tileProduct_apply _ _ p q) (tileProduct_apply _ _ p q)

/-- The third stored tile at `(p, q)`: `x · C`. -/
theorem third_apply (x : Vec Ideal S2000x128 .f32) (wc : Vec Ideal S128x128 .f32) (p : Fin 2000) (q : Fin 128) :
    k1_pay4 (F := Ideal) x wc (ix2 p q) = ∑ k : Fin 128, x (ix2 p k) * wc (ix2 k q) := by
  unfold k1_pay4 k1_pay2
  simp only [shapeCast_self]
  exact tileProduct_apply _ _ p q

/-! ## The same at any index of the tile -/

theorem first_at (a : Vec Ideal S2000x128 .f32) (w : Vec Ideal S128x128 .f32) (i : S2000x128.Idx) :
    k0_pay1 (F := Ideal) a w i = ∑ k : Fin 128, a (ix2 (i 0) k) * w (ix2 k (i 1)) := by
  obtain ⟨p, q, rfl⟩ : ∃ (p : Fin 2000) (q : Fin 128), i = ix2 p q := ⟨i 0, i 1, eq_ix2 i⟩
  exact first_apply a w p q

theorem hidden_at (s : Vec Ideal S2000x1 .f32) (agg hlin : Vec Ideal S2000x128 .f32) (b : Vec Ideal S1x128 .f32)
    (i : S2000x128.Idx) :
    k1_pay1 (F := Ideal) s agg hlin b i
      = FloatOps.maximumf (FloatOps.addf (FloatOps.addf (agg i) (FloatOps.mulf (hlin i) (s (ix2 (i 0) (0 : Fin 1)))))
          (b (ix2 (0 : Fin 1) (i 1)))) (Scalar.ofBits (F := Ideal) .f32 0x00000000#32) := by
  obtain ⟨p, q, rfl⟩ : ∃ (p : Fin 2000) (q : Fin 128), i = ix2 p q := ⟨i 0, i 1, eq_ix2 i⟩
  exact hidden_apply s agg hlin b p q

theorem pair_at (s : Vec Ideal S2000x1 .f32) (agg hlin : Vec Ideal S2000x128 .f32) (b : Vec Ideal S1x128 .f32)
    (x : Vec Ideal S2000x128 .f32) (wa wb : Vec Ideal S128x128 .f32) (i : S2000x128.Idx) :
    k1_pay3 (F := Ideal) s agg hlin b x wa wb i
      = (∑ k : Fin 128, x (ix2 (i 0) k) * wa (ix2 k (i 1)))
        + ∑ k : Fin 128, k1_pay1 (F := Ideal) s agg hlin b (ix2 (i 0) k) * wb (ix2 k (i 1)) := by
  obtain ⟨p, q, rfl⟩ : ∃ (p : Fin 2000) (q : Fin 128), i = ix2 p q := ⟨i 0, i 1, eq_ix2 i⟩
  exact pair_apply s agg hlin b x wa wb p q

theorem third_at (x : Vec Ideal S2000x128 .f32) (wc : Vec Ideal S128x128 .f32) (i : S2000x128.Idx) :
    k1_pay4 (F := Ideal) x wc i = ∑ k : Fin 128, x (ix2 (i 0) k) * wc (ix2 k (i 1)) := by
  obtain ⟨p, q, rfl⟩ : ∃ (p : Fin 2000) (q : Fin 128), i = ix2 p q := ⟨i 0, i 1, eq_ix2 i⟩
  exact third_apply x wc p q

end Cert.KernelIdeal.Bodies

end
-- ==== Proof.Region0.lean ====
/-
  The first kernel's output array: the product of `x` with `W1`.

  The grid has 25 points. Point `t` reads rows `2000 t … 2000 t + 1999` of `x` and the whole of `W1`, and writes back
  the same rows of the output. A row of the product depends on that row of `x` only, so what point `t` writes back is
  block `t` of the whole product; the 25 blocks cover all 50000 rows, so the array ends at the product.
-/
import proofs.«108987_j15556371546755_2_alg».proof.Proof.Gen.KernelIdeal.Frame
import proofs.«108987_j15556371546755_2_alg».proof.Proof.Bodies

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-- The product of a 50000 × 128 array with a 128 × 128 matrix, entry by entry. -/
def rowsTimes (a : S50000x128.Idx → EReal) (w : S128x128.Idx → EReal) : S50000x128.Idx → EReal :=
  fun i => ∑ k : Fin 128, a (ix2 (i 0) k) * w (ix2 k (i 1))

theorem zero_offsets : (![0, 0] : Fin 2 → Nat) = fun _ => 0 := funext fun a => by fin_cases a <;> rfl

/-- The index maps over the grid: the `x` window and the output window sit at block row `t`, the matrix window at the
    origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block of a product, as sums. A tile `a` holding rows `2000 r …` of `A`, contracted with a matrix `w` that is
    `B`, gives at tile index `i` the product's entry at the array index `I` with the same column and row `2000 r` further
    down. -/
theorem block_sum (A : S50000x128.Idx → EReal) (B : S128x128.Idx → EReal)
    (a : S2000x128.Idx → EReal) (w : S128x128.Idx → EReal) (r : Nat) (i : S2000x128.Idx) (I : S50000x128.Idx)
    (hI0 : (I 0).val = r * 2000 + (i 0).val) (hI1 : (I 1).val = (i 1).val)
    (ha : ∀ (y : S2000x128.Idx) (Y : S50000x128.Idx), (Y 0).val = r * 2000 + (y 0).val → (Y 1).val = (y 1).val → a y = A Y)
    (hw : ∀ y : S128x128.Idx, w y = B y) :
    (∑ k : Fin 128, a (ix2 (i 0) k) * w (ix2 k (i 1))) = rowsTimes A B I := by
  unfold rowsTimes
  refine Finset.sum_congr rfl fun k _ => ?_
  rw [ha (ix2 (i 0) k) (ix2 (I 0) k) hI0 rfl, hw]
  exact congrArg (fun z => A (ix2 (I 0) k) * B (ix2 k z)) (Fin.ext hI1.symm)

/-- The first body's stored tile is that block of the product. -/
theorem block_of_product (A : S50000x128.Idx → EReal) (B : S128x128.Idx → EReal)
    (a : S2000x128.Idx → EReal) (w : S128x128.Idx → EReal) (r : Nat) (i : S2000x128.Idx) (I : S50000x128.Idx)
    (hI0 : (I 0).val = r * 2000 + (i 0).val) (hI1 : (I 1).val = (i 1).val)
    (ha : ∀ (y : S2000x128.Idx) (Y : S50000x128.Idx), (Y 0).val = r * 2000 + (y 0).val → (Y 1).val = (y 1).val → a y = A Y)
    (hw : ∀ y : S128x128.Idx, w y = B y) :
    k0_pay1 (F := Ideal) a w i = rowsTimes A B I :=
  (Bodies.first_at a w i).trans (block_sum A B a w r i I hI0 hI1 ha hw)

variable (V : (c : Dev nD) → (b : Ref sig .tc) → Buf (Elt Ideal) ((c : Thread nD τ).loc b))

/-- What point `t` writes back is block `t` of the product of the arrays the kernel was entered with. -/
theorem flushed_eq (c : Dev nD) (t : Fin cfg0.N) :
    (dat0 (F := Ideal) V c).flushed 2 t
      = ((cfg0.win 2).blk t).view.read (Elt Ideal) (rowsTimes (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := index_facts t
  funext j
  have hj0 : (j 0).val < 2000 := (j 0).isLt
  have hj1 : (j 1).val < 128 := (j 1).isLt
  refine block_of_product (V c main_arg0) (V c main_arg2) (iblk0 V c 0 t) (iblk0 V c 1 t) t.val
    ((win0 2).xinj (grid0.coords t) j) (((cfg0.win 2).blk t).view.emb j) ?_ ?_ ?_ ?_
  · show win0_2.index t (0 : Fin 2) * 2000 + 1 * (j 0).val = t.val * 2000 + (j 0).val
    omega
  · show win0_2.index t (1 : Fin 2) * 128 + 1 * (j 1).val = (j 1).val
    omega
  · intro y Y h0 h1
    show V c main_arg0 (((cfg0.win 0).blk t).view.emb y) = V c main_arg0 Y
    refine congrArg (V c main_arg0) (funext fun a => Fin.ext ?_)
    match a with
    | ⟨0, _⟩ => show win0_0.index t (0 : Fin 2) * 2000 + 1 * (y 0).val = (Y 0).val; omega
    | ⟨1, _⟩ => show win0_0.index t (1 : Fin 2) * 128 + 1 * (y 1).val = (Y 1).val; omega
  · intro y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v30).slice (win0_2.rect t)).set ↔ _
  rw [View.set_slice_whole, Rect.mem_set_unit]
  exact Iff.rfl

/-- Every row is in the block of the point numbered by the row divided by 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < cfg0.N := Nat.lt_of_lt_of_eq (by omega : (i 0).val / 2000 < 25) N_0.symm
  obtain ⟨e0, e1, e2, e3, e4, e5⟩ := index_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]
    omega

/-- The output array after the first kernel: the product of the `x` and `W1` arrays it was entered with. -/
theorem array_eq (c : Dev nD) :
    (dat0 (F := Ideal) V c).arrAt 2 cfg0.N = rowsTimes (V c main_arg0) (V c main_arg2) :=
  (dat0 (F := Ideal) V c).arrAt_eq_of_cover 2 _ (fun t _ => flushed_eq V c t) cover

end Cert.KernelIdeal.Region0

end
-- ==== Proof.Region1.lean ====
/-
  The second kernel's output arrays.

  Point `t` of its 25 reads rows `2000 t …` of the neighbour sums `agg`, of the linear part `hlin`, of the column of
  row scales `s` and of `x`, the whole bias row `b` and the three whole matrices, and writes back the same rows of its
  three outputs. The hidden layer at `(p, k)` is `max((agg (p, k) + hlin (p, k) · s p) + b k, 0)`: it depends on row `p`
  only, so the hidden tile the body contracts is block `t` of the whole hidden array, and the second output at `(p, q)`
  is `Σₖ x (p, k) · A (k, q) + Σₖ hidden (p, k) · B (k, q)`; the third is `Σₖ x (p, k) · C (k, q)`. The blocks cover
  every row, so each array ends at that function of the arrays the kernel was entered with.
-/
import proofs.«108987_j15556371546755_2_alg».proof.Proof.Gen.KernelIdeal.Frame
import proofs.«108987_j15556371546755_2_alg».proof.Proof.Bodies
import proofs.«108987_j15556371546755_2_alg».proof.Proof.Region0

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Cert.KernelIdeal.Region0 (rowsTimes zero_offsets block_sum)

/-- The hidden layer, entry by entry: the row's scale on the linear part, the column's bias added last, clipped below
    at the zero word. -/
def hiddenOf (agg hlin : Vec Ideal S50000x128 .f32) (s : Vec Ideal S50000x1 .f32) (b : Vec Ideal S1x128 .f32) :
    Vec Ideal S50000x128 .f32 :=
  fun i => FloatOps.maximumf (FloatOps.addf (FloatOps.addf (agg i) (FloatOps.mulf (hlin i) (s (ix2 (i 0) (0 : Fin 1)))))
    (b (ix2 (0 : Fin 1) (i 1)))) (Scalar.ofBits (F := Ideal) .f32 0x00000000#32)

/-- The second output, entry by entry: `x · A + hidden · B`. -/
def pairOf (agg hlin : Vec Ideal S50000x128 .f32) (s : Vec Ideal S50000x1 .f32) (b : Vec Ideal S1x128 .f32)
    (x : Vec Ideal S50000x128 .f32) (wa wb : Vec Ideal S128x128 .f32) : S50000x128.Idx → EReal :=
  fun i => rowsTimes x wa i + rowsTimes (hiddenOf agg hlin s b) wb i

/-! ## One block of each -/

/-- The hidden tile is a block of the hidden array. -/
theorem block_of_hidden (AGG HL : Vec Ideal S50000x128 .f32) (S : Vec Ideal S50000x1 .f32) (B : Vec Ideal S1x128 .f32)
    (agg hl : Vec Ideal S2000x128 .f32) (s : Vec Ideal S2000x1 .f32) (b : Vec Ideal S1x128 .f32) (r : Nat)
    (hagg : ∀ (y : S2000x128.Idx) (Y : S50000x128.Idx), (Y 0).val = r * 2000 + (y 0).val → (Y 1).val = (y 1).val → agg y = AGG Y)
    (hhl : ∀ (y : S2000x128.Idx) (Y : S50000x128.Idx), (Y 0).val = r * 2000 + (y 0).val → (Y 1).val = (y 1).val → hl y = HL Y)
    (hs : ∀ (y : S2000x1.Idx) (Y : S50000x1.Idx), (Y 0).val = r * 2000 + (y 0).val → (Y 1).val = (y 1).val → s y = S Y)
    (hb : ∀ y : S1x128.Idx, b y = B y)
    (y : S2000x128.Idx) (Y : S50000x128.Idx) (hY0 : (Y 0).val = r * 2000 + (y 0).val) (hY1 : (Y 1).val = (y 1).val) :
    k1_pay1 (F := Ideal) s agg hl b y = hiddenOf AGG HL S B Y := by
  rw [Bodies.hidden_at]
  unfold hiddenOf
  rw [hagg y Y hY0 hY1, hhl y Y hY0 hY1, hs (ix2 (y 0) (0 : Fin 1)) (ix2 (Y 0) (0 : Fin 1)) hY0 rfl, hb]
  exact congrArg (fun z => FloatOps.maximumf (FloatOps.addf (FloatOps.addf (AGG Y) (FloatOps.mulf (HL Y) (S (ix2 (Y 0) (0 : Fin 1)))))
    (B (ix2 (0 : Fin 1) z))) (Scalar.ofBits (F := Ideal) .f32 0x00000000#32)) (Fin.ext hY1.symm)

/-- The second stored tile is a block of the second output. -/
theorem block_of_pair (AGG HL : Vec Ideal S50000x128 .f32) (S : Vec Ideal S50000x1 .f32) (B : Vec Ideal S1x128 .f32)
    (X : Vec Ideal S50000x128 .f32) (WA WB : Vec Ideal S128x128 .f32)
    (agg hl : Vec Ideal S2000x128 .f32) (s : Vec Ideal S2000x1 .f32) (b : Vec Ideal S1x128 .f32)
    (x : Vec Ideal S2000x128 .f32) (wa wb : Vec Ideal S128x128 .f32) (r : Nat)
    (hagg : ∀ (y : S2000x128.Idx) (Y : S50000x128.Idx), (Y 0).val = r * 2000 + (y 0).val → (Y 1).val = (y 1).val → agg y = AGG Y)
    (hhl : ∀ (y : S2000x128.Idx) (Y : S50000x128.Idx), (Y 0).val = r * 2000 + (y 0).val → (Y 1).val = (y 1).val → hl y = HL Y)
    (hs : ∀ (y : S2000x1.Idx) (Y : S50000x1.Idx), (Y 0).val = r * 2000 + (y 0).val → (Y 1).val = (y 1).val → s y = S Y)
    (hb : ∀ y : S1x128.Idx, b y = B y)
    (hx : ∀ (y : S2000x128.Idx) (Y : S50000x128.Idx), (Y 0).val = r * 2000 + (y 0).val → (Y 1).val = (y 1).val → x y = X Y)
    (hwa : ∀ y : S128x128.Idx, wa y = WA y) (hwb : ∀ y : S128x128.Idx, wb y = WB y)
    (i : S2000x128.Idx) (I : S50000x128.Idx) (hI0 : (I 0).val = r * 2000 + (i 0).val) (hI1 : (I 1).val = (i 1).val) :
    k1_pay3 (F := Ideal) s agg hl b x wa wb i = pairOf AGG HL S B X WA WB I := by
  rw [Bodies.pair_at]
  unfold pairOf
  exact congrArg₂ (fun u v : EReal => u + v)
    (block_sum X WA x wa r i I hI0 hI1 hx hwa)
    (block_sum (hiddenOf AGG HL S B) WB (k1_pay1 (F := Ideal) s agg hl b) wb r i I hI0 hI1
      (fun y Y h0 h1 => block_of_hidden AGG HL S B agg hl s b r hagg hhl hs hb y Y h0 h1) hwb)

/-- The third stored tile is a block of the product `x · C`. -/
theorem block_of_third (X : Vec Ideal S50000x128 .f32) (WC : Vec Ideal S128x128 .f32)
    (x : Vec Ideal S2000x128 .f32) (wc : Vec Ideal S128x128 .f32) (r : Nat)
    (hx : ∀ (y : S2000x128.Idx) (Y : S50000x128.Idx), (Y 0).val = r * 2000 + (y 0).val → (Y 1).val = (y 1).val → x y = X Y)
    (hwc : ∀ y : S128x128.Idx, wc y = WC y)
    (i : S2000x128.Idx) (I : S50000x128.Idx) (hI0 : (I 0).val = r * 2000 + (i 0).val) (hI1 : (I 1).val = (i 1).val) :
    k1_pay4 (F := Ideal) x wc i = rowsTimes X WC I :=
  (Bodies.third_at x wc i).trans (block_sum X WC x wc r i I hI0 hI1 hx hwc)

/-! ## The index maps -/

/-- Over the grid: the windows of `agg`, `hlin`, the scale column, `x` and the two outputs sit at block row `t`; the bias
    row and the three matrices at the origin. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

variable (V : (c : Dev nD) → (b : Ref sig .tc) → Buf (Elt Ideal) ((c : Thread nD τ).loc b))

/-! ## What a point reads -/

section Reads
variable (c : Dev nD) (t : Fin cfg1.N)

theorem read_agg (y : S2000x128.Idx) (Y : S50000x128.Idx) (h0 : (Y 0).val = t.val * 2000 + (y 0).val)
    (h1 : (Y 1).val = (y 1).val) : iblk1 V c 0 t y = V c main_v42 Y := by
  obtain ⟨⟨e0, e1⟩, -⟩ := index_facts t
  show V c main_v42 (((cfg1.win 0).blk t).view.emb y) = V c main_v42 Y
  refine congrArg (V c main_v42) (funext fun a => Fin.ext ?_)
  match a with
  | ⟨0, _⟩ => show win1_0.index t (0 : Fin 2) * 2000 + 1 * (y 0).val = (Y 0).val; omega
  | ⟨1, _⟩ => show win1_0.index t (1 : Fin 2) * 128 + 1 * (y 1).val = (Y 1).val; omega

theorem read_hlin (y : S2000x128.Idx) (Y : S50000x128.Idx) (h0 : (Y 0).val = t.val * 2000 + (y 0).val)
    (h1 : (Y 1).val = (y 1).val) : iblk1 V c 1 t y = V c main_v30 Y := by
  obtain ⟨-, ⟨e0, e1⟩, -⟩ := index_facts t
  show V c main_v30 (((cfg1.win 1).blk t).view.emb y) = V c main_v30 Y
  refine congrArg (V c main_v30) (funext fun a => Fin.ext ?_)
  match a with
  | ⟨0, _⟩ => show win1_1.index t (0 : Fin 2) * 2000 + 1 * (y 0).val = (Y 0).val; omega
  | ⟨1, _⟩ => show win1_1.index t (1 : Fin 2) * 128 + 1 * (y 1).val = (Y 1).val; omega

theorem read_scale (y : S2000x1.Idx) (Y : S50000x1.Idx) (h0 : (Y 0).val = t.val * 2000 + (y 0).val)
    (h1 : (Y 1).val = (y 1).val) : iblk1 V c 2 t y = V c main_v29 Y := by
  obtain ⟨-, -, ⟨e0, e1⟩, -⟩ := index_facts t
  show V c main_v29 (((cfg1.win 2).blk t).view.emb y) = V c main_v29 Y
  refine congrArg (V c main_v29) (funext fun a => Fin.ext ?_)
  match a with
  | ⟨0, _⟩ => show win1_2.index t (0 : Fin 2) * 2000 + 1 * (y 0).val = (Y 0).val; omega
  | ⟨1, _⟩ => show win1_2.index t (1 : Fin 2) * 1 + 1 * (y 1).val = (Y 1).val; omega

theorem read_bias (y : S1x128.Idx) : iblk1 V c 3 t y = V c main_v43 y := by
  obtain ⟨-, -, -, ⟨e0, e1⟩, -⟩ := index_facts t
  show V c main_v43 (((cfg1.win 3).blk t).view.emb y) = V c main_v43 y
  refine congrArg (V c main_v43) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem read_x (y : S2000x128.Idx) (Y : S50000x128.Idx) (h0 : (Y 0).val = t.val * 2000 + (y 0).val)
    (h1 : (Y 1).val = (y 1).val) : iblk1 V c 4 t y = V c main_arg0 Y := by
  obtain ⟨-, -, -, -, ⟨e0, e1⟩, -⟩ := index_facts t
  show V c main_arg0 (((cfg1.win 4).blk t).view.emb y) = V c main_arg0 Y
  refine congrArg (V c main_arg0) (funext fun a => Fin.ext ?_)
  match a with
  | ⟨0, _⟩ => show win1_4.index t (0 : Fin 2) * 2000 + 1 * (y 0).val = (Y 0).val; omega
  | ⟨1, _⟩ => show win1_4.index t (1 : Fin 2) * 128 + 1 * (y 1).val = (Y 1).val; omega

theorem read_wa (y : S128x128.Idx) : iblk1 V c 5 t y = V c main_v46 y := by
  obtain ⟨-, -, -, -, -, ⟨e0, e1⟩, -⟩ := index_facts t
  show V c main_v46 (((cfg1.win 5).blk t).view.emb y) = V c main_v46 y
  refine congrArg (V c main_v46) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

theorem read_wb (y : S128x128.Idx) : iblk1 V c 6 t y = V c main_v47 y := by
  obtain ⟨-, -, -, -, -, -, ⟨e0, e1⟩, -⟩ := index_facts t
  show V c main_v47 (((cfg1.win 6).blk t).view.emb y) = V c main_v47 y
  refine congrArg (V c main_v47) (funext fun a => Fin.ext ?_)
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem read_wc (y : S128x128.Idx) : iblk1 V c 7 t y = V c main_v48 y := by
  obtain ⟨-, -, -, -, -, -, -, ⟨e0, e1⟩, -⟩ := index_facts t
  show V c main_v48 (((cfg1.win 7).blk t).view.emb y) = V c main_v48 y
  refine congrArg (V c main_v48) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

end Reads

/-! ## What a point writes back -/

/-- Point `t` writes back block `t` of the second output. -/
theorem flushed9_eq (c : Dev nD) (t : Fin cfg1.N) :
    (dat1 (F := Ideal) V c).flushed 9 t
      = ((cfg1.win 9).blk t).view.read (Elt Ideal)
          (pairOf (V c main_v42) (V c main_v30) (V c main_v29) (V c main_v43) (V c main_arg0) (V c main_v46) (V c main_v47)) := by
  show (cfg1.win 9).cut (grid1.coords t) ((dat1 (F := Ideal) V c).after 9 t) = _
  rw [after1_9]
  unfold out1_9
  rw [View.canon_unit_zero zero_offsets]
  simp only [View.ld_unit_zero (S := S2000x128) zero_offsets, View.ld_unit_zero (S := S128x128) zero_offsets,
    View.ld_unit_zero (S := S2000x1) zero_offsets, View.ld_unit_zero (S := S1x128) zero_offsets]
  obtain ⟨-, -, -, -, -, -, -, -, ⟨e0, e1⟩, -⟩ := index_facts t
  funext j
  have hj0 : (j 0).val < 2000 := (j 0).isLt
  have hj1 : (j 1).val < 128 := (j 1).isLt
  refine block_of_pair (V c main_v42) (V c main_v30) (V c main_v29) (V c main_v43) (V c main_arg0) (V c main_v46) (V c main_v47)
    (iblk1 V c 0 t) (iblk1 V c 1 t) (iblk1 V c 2 t) (iblk1 V c 3 t) (iblk1 V c 4 t) (iblk1 V c 5 t) (iblk1 V c 6 t) t.val
    (read_agg V c t) (read_hlin V c t) (read_scale V c t) (read_bias V c t) (read_x V c t) (read_wa V c t) (read_wb V c t)
    ((win1 9).xinj (grid1.coords t) j) (((cfg1.win 9).blk t).view.emb j) ?_ ?_
  · show win1_9.index t (0 : Fin 2) * 2000 + 1 * (j 0).val = t.val * 2000 + (j 0).val
    omega
  · show win1_9.index t (1 : Fin 2) * 128 + 1 * (j 1).val = (j 1).val
    omega

/-- Point `t` writes back block `t` of the third output. -/
theorem flushed10_eq (c : Dev nD) (t : Fin cfg1.N) :
    (dat1 (F := Ideal) V c).flushed 10 t
      = ((cfg1.win 10).blk t).view.read (Elt Ideal) (rowsTimes (V c main_arg0) (V c main_v48)) := by
  show (cfg1.win 10).cut (grid1.coords t) ((dat1 (F := Ideal) V c).after 10 t) = _
  rw [after1_10]
  unfold out1_10
  rw [View.canon_unit_zero zero_offsets]
  simp only [View.ld_unit_zero (S := S2000x128) zero_offsets, View.ld_unit_zero (S := S128x128) zero_offsets]
  obtain ⟨-, -, -, -, -, -, -, -, -, ⟨e0, e1⟩⟩ := index_facts t
  funext j
  have hj0 : (j 0).val < 2000 := (j 0).isLt
  have hj1 : (j 1).val < 128 := (j 1).isLt
  refine block_of_third (V c main_arg0) (V c main_v48) (iblk1 V c 4 t) (iblk1 V c 7 t) t.val
    (read_x V c t) (read_wc V c t)
    ((win1 10).xinj (grid1.coords t) j) (((cfg1.win 10).blk t).view.emb j) ?_ ?_
  · show win1_10.index t (0 : Fin 2) * 2000 + 1 * (j 0).val = t.val * 2000 + (j 0).val
    omega
  · show win1_10.index t (1 : Fin 2) * 128 + 1 * (j 1).val = (j 1).val
    omega

/-! ## The blocks cover the arrays -/

theorem mem_blk9 (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v49_1).slice (win1_9.rect t)).set ↔ _
  rw [View.set_slice_whole, Rect.mem_set_unit]
  exact Iff.rfl

theorem mem_blk10 (t : Fin cfg1.N) (i : S50000x128.Idx) :
    i ∈ ((cfg1.win 10).blk t).view.set ↔ ∀ a : Fin 2, win1_10.index t a * S2000x128.size a ≤ (i a).val
      ∧ (i a).val < win1_10.index t a * S2000x128.size a + S2000x128.size a := by
  show i ∈ ((View.whole main_v49_2).slice (win1_10.rect t)).set ↔ _
  rw [View.set_slice_whole, Rect.mem_set_unit]
  exact Iff.rfl

theorem cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have ht : (i 0).val / 2000 < cfg1.N := Nat.lt_of_lt_of_eq (by omega : (i 0).val / 2000 < 25) N_1.symm
  obtain ⟨-, -, -, -, -, -, -, -, ⟨e0, e1⟩, -⟩ := index_facts ⟨(i 0).val / 2000, ht⟩
  refine ⟨⟨(i 0).val / 2000, ht⟩, flush1_9 _, ?_⟩
  rw [mem_blk9]
  intro a
  match a with
  | ⟨0, _⟩ =>
    show win1_9.index ⟨(i 0).val / 2000, ht⟩ (0 : Fin 2) * 2000 ≤ (i 0).val
      ∧ (i 0).val < win1_9.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_9.index ⟨(i 0).val / 2000, ht⟩ (1 : Fin 2) * 128 ≤ (i 1).val
      ∧ (i 1).val < win1_9.index ⟨(i 0).val / 2000, ht⟩ (1 : Fin 2) * 128 + 128
    rw [e1]
    omega

theorem cover10 (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have ht : (i 0).val / 2000 < cfg1.N := Nat.lt_of_lt_of_eq (by omega : (i 0).val / 2000 < 25) N_1.symm
  obtain ⟨-, -, -, -, -, -, -, -, -, ⟨e0, e1⟩⟩ := index_facts ⟨(i 0).val / 2000, ht⟩
  refine ⟨⟨(i 0).val / 2000, ht⟩, flush1_10 _, ?_⟩
  rw [mem_blk10]
  intro a
  match a with
  | ⟨0, _⟩ =>
    show win1_10.index ⟨(i 0).val / 2000, ht⟩ (0 : Fin 2) * 2000 ≤ (i 0).val
      ∧ (i 0).val < win1_10.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_10.index ⟨(i 0).val / 2000, ht⟩ (1 : Fin 2) * 128 ≤ (i 1).val
      ∧ (i 1).val < win1_10.index ⟨(i 0).val / 2000, ht⟩ (1 : Fin 2) * 128 + 128
    rw [e1]
    omega

/-! ## The arrays after the kernel -/

/-- The second output array: `x · A + hidden · B` of the arrays the kernel was entered with. -/
theorem array9_eq (c : Dev nD) :
    (dat1 (F := Ideal) V c).arrAt 9 cfg1.N
      = pairOf (V c main_v42) (V c main_v30) (V c main_v29) (V c main_v43) (V c main_arg0) (V c main_v46) (V c main_v47) :=
  (dat1 (F := Ideal) V c).arrAt_eq_of_cover 9 _ (fun t _ => flushed9_eq V c t) cover9

/-- The third output array: `x · C`. -/
theorem array10_eq (c : Dev nD) :
    (dat1 (F := Ideal) V c).arrAt 10 cfg1.N = rowsTimes (V c main_arg0) (V c main_v48) :=
  (dat1 (F := Ideal) V c).arrAt_eq_of_cover 10 _ (fun t _ => flushed10_eq V c t) cover10

end Cert.KernelIdeal.Region1

end
-- ==== Proof.LibSumGroups.lean ====
/-
  A finite sum over consecutive groups of indices.

  In any additive commutative monoid, a sum over the `a + b` indices `0, …, a + b − 1` is the sum over the first `a` of
  them plus the sum over the last `b` (`sum_fin_add`): the index set `Fin c` with `c = a + b` is named by the plain
  numbers below `c`, so the statement applies to a literal `c` (549 = 384 + 165) without any cast between index types.
  Applied repeatedly it splits a contraction over the columns of several arrays joined side by side into one
  contraction per array. Only associativity and commutativity of addition are used, so it holds for extended reals,
  infinities included.
-/
import Mathlib.Algebra.BigOperators.Fin

namespace Cert.LibSumGroups

/-- A sum over `a + b = c` consecutive indices is the sum over the first `a` plus the sum over the last `b`. -/
theorem sum_fin_add {M : Type*} [AddCommMonoid M] (a b c : ℕ) (h : a + b = c) (f : Fin c → M) :
    ∑ k : Fin c, f k = ∑ k : Fin a, f ⟨k.val, by omega⟩ + ∑ k : Fin b, f ⟨a + k.val, by omega⟩ := by
  subst h
  exact Fin.sum_univ_add f

end Cert.LibSumGroups
-- ==== Proof.LibVecLayout.lean ====
/-
  A vector laid out as a column or as a row.

  A vector of `n` entries becomes an `n × 1` column, or a `1 × n` row, in two ways that programs use interchangeably: by
  a reshape (the entries keep their row-major order), or by a broadcast along a new axis of extent one (entry `p` of
  the result on the old axis is entry `p` of the vector). Read at `(p, 0)`, respectively `(0, q)`, the reshape gives
  entry `p`, respectively `q` (`column_apply`, `row_apply`): the row-major position of `(p, 0)` in `n × 1` is `p · 1 + 0`
  and that of `(0, q)` in `1 × n` is `0 · n + q`. So the two ways give the same array (`column_eq_broadcast`,
  `row_eq_broadcast`), for every `n` and every proof of the two side conditions.
-/
import Idealize.ShloMosaic.Lib.ValueIdx
import Idealize.ShloMosaic.Lib.Pipeline.Value

noncomputable section

namespace Cert.LibVecLayout

open Idealize.ShloMosaic Idealize.ShloMosaic.ValueIdx

/-- A vector laid out as a column, at row `p`. -/
theorem column_apply {n : Nat} (y : (⟨1, ![n]⟩ : Shape).Idx → EReal) (h : (⟨1, ![n]⟩ : Shape).ShapeCasts ⟨2, ![n, 1]⟩)
    (p : Fin n) : shapeCast (⟨2, ![n, 1]⟩ : Shape) y h (ix2 p (0 : Fin 1)) = y (ix1 p) :=
  shapeCast_apply y h (ix2 p (0 : Fin 1)) (ix1 p) (by
    rw [Shape.rowMajor_val_one, Shape.rowMajor_val_two]
    show p.val = p.val * 1 + 0
    omega)

/-- A vector laid out as a row, at column `q`. -/
theorem row_apply {n : Nat} (y : (⟨1, ![n]⟩ : Shape).Idx → EReal) (h : (⟨1, ![n]⟩ : Shape).ShapeCasts ⟨2, ![1, n]⟩)
    (q : Fin n) : shapeCast (⟨2, ![1, n]⟩ : Shape) y h (ix2 (0 : Fin 1) q) = y (ix1 q) :=
  shapeCast_apply y h (ix2 (0 : Fin 1) q) (ix1 q) (by
    rw [Shape.rowMajor_val_one, Shape.rowMajor_val_two]
    show q.val = 0 * n + q.val
    omega)

/-- Laying a vector out as a column by a reshape or by a broadcast along a new unit axis gives the same array. -/
theorem column_eq_broadcast {n : Nat} (y : (⟨1, ![n]⟩ : Shape).Idx → EReal) (h : (⟨1, ![n]⟩ : Shape).ShapeCasts ⟨2, ![n, 1]⟩)
    (h' : (⟨1, ![n]⟩ : Shape).BroadcastsInDim ⟨2, ![n, 1]⟩ ![0]) :
    shapeCast (⟨2, ![n, 1]⟩ : Shape) y h = broadcastInDim (⟨2, ![n, 1]⟩ : Shape) ![0] h' y := by
  funext i
  obtain ⟨p, z, rfl⟩ : ∃ (p : Fin n) (z : Fin 1), i = ix2 p z := ⟨i 0, i 1, eq_ix2 i⟩
  obtain rfl : z = 0 := Subsingleton.elim _ _
  rw [column_apply y h p]
  exact (broadcastInDim_apply _ h' y (ix2 p (0 : Fin 1)) (ix1 p) (fun a => by
    match a with
    | ⟨0, _⟩ =>
      show p.val = if n = 1 then 0 else p.val
      split
      · have := p.isLt; omega
      · rfl)).symm

/-- Laying a vector out as a row by a reshape or by a broadcast along a new unit axis gives the same array. -/
theorem row_eq_broadcast {n : Nat} (y : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast (⟨2, ![1, n]⟩ : Shape) y h = broadcastInDim (⟨2, ![1, n]⟩ : Shape) ![1] h' y := by
  funext i
  obtain ⟨z, q, rfl⟩ : ∃ (z : Fin 1) (q : Fin n), i = ix2 z q := ⟨i 0, i 1, eq_ix2 i⟩
  obtain rfl : z = 0 := Subsingleton.elim _ _
  rw [row_apply y h q]
  exact (broadcastInDim_apply _ h' y (ix2 (0 : Fin 1) q) (ix1 q) (fun a => by
    match a with
    | ⟨0, _⟩ =>
      show q.val = if n = 1 then 0 else q.val
      split
      · have := q.isLt; omega
      · rfl)).symm

end Cert.LibVecLayout

end
-- ==== Proof.RefBridge.lean ====
/-
  The kernel's whole-array functions, fed the reference's own stages, are the reference's stages.

  Four facts over arrays of extended reals. (1) The product of `x` with `W1` read as a sum over `k` is the reference's
  first `dot_general`. (2) The hidden layer built from the reference's neighbour sums, its first product, its squared
  inverse-root degrees laid out as a column, and the bias laid out as a row, is the reference's relu stage. (3) The
  reference contracts the 256 columns of `[x, h]` with the 256 rows of `W2`; a sum over `256 = 128 + 128` indices is the
  sum over the first 128 plus the sum over the last 128, the first group reads `x` against rows `0 … 127` of `W2` and the
  second reads `h` against rows `128 … 255`: that is the kernel's `x · A + h · B` at columns `0` and `1`, where the padded
  matrices `A` and `B` hold those rows of `W2`. Only associativity and commutativity of addition are used, so nothing
  here needs the entries to be finite. (4) `x · C` at columns `0` and `1`, with `C` the padded `W_skip`, is the reference's
  last `dot_general`.
-/
import proofs.«108987_j15556371546755_2_alg».proof.Proof.Gen.ReferenceIdeal.Read
import proofs.«108987_j15556371546755_2_alg».proof.Proof.Region0
import proofs.«108987_j15556371546755_2_alg».proof.Proof.Region1
import proofs.«108987_j15556371546755_2_alg».proof.Proof.LibSumGroups
import proofs.«108987_j15556371546755_2_alg».proof.Proof.LibVecLayout
import Idealize.ShloMosaic.Lib.KernelVsHost

set_option maxRecDepth 16384

noncomputable section

namespace Cert.Bridge

open Idealize.ShloMosaic Idealize.ShloMosaic.ValueIdx
open Cert.ReferenceIdeal Cert.ReferenceIdeal.Read
open Cert.KernelIdeal.Region0 (rowsTimes)
open Cert.KernelIdeal.Region1 (hiddenOf pairOf)
open Cert.LibVecLayout (column_apply row_apply)

/-! ## Layouts read at an index -/

/-- Two arrays of 128 columns joined side by side, read in the left one. -/
theorem joined_left (x y : S50000x128.Idx → EReal)
    (h : Shape.Concatenates (([⟨S50000x128, x⟩, ⟨S50000x128, y⟩] : List ((s : Shape) × (s.Idx → EReal))).map (·.1)) S50000x256 1)
    (j : S50000x256.Idx) (p : Fin 50000) (k : Fin 128) (hj0 : (j 0).val = p.val) (hj1 : (j 1).val = k.val) :
    concatenate S50000x256 1 [⟨S50000x128, x⟩, ⟨S50000x128, y⟩] h j = x (ix2 p k) :=
  concatenate_apply_piece 1 [⟨S50000x128, x⟩, ⟨S50000x128, y⟩] h j 0 (by show (0 : Nat) < 2; omega) S50000x128 x rfl rfl 0 rfl (ix2 p k)
    (fun b hb => by
      match b with
      | ⟨0, _⟩ => exact hj0.symm
      | ⟨1, _⟩ => exact absurd rfl hb)
    (by show 0 + k.val = (j 1).val; omega)

/-- The same, read in the right one. -/
theorem joined_right (x y : S50000x128.Idx → EReal)
    (h : Shape.Concatenates (([⟨S50000x128, x⟩, ⟨S50000x128, y⟩] : List ((s : Shape) × (s.Idx → EReal))).map (·.1)) S50000x256 1)
    (j : S50000x256.Idx) (p : Fin 50000) (k : Fin 128) (hj0 : (j 0).val = p.val) (hj1 : (j 1).val = 128 + k.val) :
    concatenate S50000x256 1 [⟨S50000x128, x⟩, ⟨S50000x128, y⟩] h j = y (ix2 p k) :=
  concatenate_apply_piece 1 [⟨S50000x128, x⟩, ⟨S50000x128, y⟩] h j 1 (by show (1 : Nat) < 2; omega) S50000x128 y rfl rfl 128 rfl (ix2 p k)
    (fun b hb => by
      match b with
      | ⟨0, _⟩ => exact hj0.symm
      | ⟨1, _⟩ => exact absurd rfl hb)
    (by show 128 + k.val = (j 1).val; omega)

/-- The first two of 128 columns, at an index. -/
theorem firstTwoColumns_apply (y : S50000x128.Idx → EReal) (hs : S50000x128.Slices ![0, 0] S50000x2) (i : S50000x2.Idx) :
    extractStridedSlice S50000x2 ![0, 0] y hs i = y (ix2 (i 0) ⟨(i 1).val, by have h : (i 1).val < 2 := (i 1).isLt; omega⟩) :=
  extractStridedSlice_apply ![0, 0] y hs i (ix2 (i 0) ⟨(i 1).val, by have h : (i 1).val < 2 := (i 1).isLt; omega⟩) (fun a => by
    match a with
    | ⟨0, _⟩ => show (i 0).val = 0 + (i 0).val; omega
    | ⟨1, _⟩ => show (i 1).val = 0 + (i 1).val; omega)

/-! ## (1) The first product -/

theorem firstProduct_eq (x0 : S50000x128.Idx → EReal) (x2 : S128x128.Idx → EReal) :
    rowsTimes x0 x2 = val_main_v4 (F := Ideal) x0 x2 := by
  funext i
  rw [val_main_v4_apply]
  unfold rowsTimes
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

/-! ## (2) The hidden layer -/

theorem hidden_eq (x0 : S50000x128.Idx → EReal) (x1 : S2x1600000.Idx → BitVec 32) (x2 : S128x128.Idx → EReal)
    (x3 : S128.Idx → EReal) (hc : S50000.ShapeCasts S50000x1) (hr : S128.ShapeCasts S1x128) :
    hiddenOf (val_main_v40 (F := Ideal) x0 x1 x2) (val_main_v4 (F := Ideal) x0 x2)
        (shapeCast S50000x1 (val_main_v41 (F := Ideal) x1) hc) (shapeCast S1x128 x3 hr)
      = val_main_v49 (F := Ideal) x0 x1 x2 x3 := by
  funext i
  rw [val_main_v49_apply, val_main_v48_apply, val_main_v45_apply, val_main_v44_apply, val_main_v43_apply,
    val_main_v42_apply, val_main_v47_apply, val_main_v46_apply, val_main_call0_v0_apply, val_main_call0_cst_apply]
  unfold hiddenOf
  have e1 : idx_main_v42 (idx_main_v43 i) = ix1 (i 0) := funext fun a => Fin.ext (by
    match a with
    | ⟨0, _⟩ => rfl)
  have e2 : idx_main_v46 (idx_main_v47 i) = ix1 (i 1) := funext fun a => Fin.ext (by
    match a with
    | ⟨0, _⟩ => rfl)
  rw [column_apply (val_main_v41 (F := Ideal) x1) hc (i 0), row_apply x3 hr (i 1), e1, e2]
  rfl

/-! ## (3) The contraction over the joined columns -/

theorem pair_eq (x0 : S50000x128.Idx → EReal) (x1 : S2x1600000.Idx → BitVec 32) (x2 : S128x128.Idx → EReal)
    (x3 : S128.Idx → EReal) (x4 : S256x2.Idx → EReal) (hc : S50000.ShapeCasts S50000x1) (hr : S128.ShapeCasts S1x128)
    (wa wb : S128x128.Idx → EReal)
    (hwa : ∀ (k : Fin 128) (q : Fin 2), wa (ix2 k ⟨q.val, by omega⟩) = x4 (ix2 ⟨k.val, by omega⟩ q))
    (hwb : ∀ (k : Fin 128) (q : Fin 2), wb (ix2 k ⟨q.val, by omega⟩) = x4 (ix2 ⟨128 + k.val, by omega⟩ q))
    (hs : S50000x128.Slices ![0, 0] S50000x2) :
    extractStridedSlice S50000x2 ![0, 0]
        (pairOf (val_main_v40 (F := Ideal) x0 x1 x2) (val_main_v4 (F := Ideal) x0 x2)
          (shapeCast S50000x1 (val_main_v41 (F := Ideal) x1) hc) (shapeCast S1x128 x3 hr) x0 wa wb) hs
      = val_main_v51 (F := Ideal) x0 x1 x2 x3 x4 := by
  funext i
  have hi1 : (i 1).val < 2 := (i 1).isLt
  rw [firstTwoColumns_apply]
  unfold pairOf
  rw [hidden_eq x0 x1 x2 x3 hc hr, val_main_v51_apply, Cert.LibSumGroups.sum_fin_add 128 128 256 rfl]
  unfold rowsTimes
  refine congrArg₂ (fun u v : EReal => u + v) (Finset.sum_congr rfl fun k _ => ?_) (Finset.sum_congr rfl fun k _ => ?_)
  · have e1 : val_main_v50 (F := Ideal) x0 x1 x2 x3 (lidx_main_v51 i ⟨k.val, by omega⟩) = x0 (ix2 (i 0) k) := by
      unfold val_main_v50
      exact joined_left _ _ _ _ (i 0) k rfl rfl
    have e2 : ridx_main_v51 i ⟨k.val, by omega⟩ = ix2 ⟨k.val, by omega⟩ (i 1) := funext fun a => Fin.ext (by
      match a with
      | ⟨0, _⟩ => rfl
      | ⟨1, _⟩ => rfl)
    rw [e1, e2]
    exact congrArg (fun z => x0 (ix2 (i 0) k) * z) (hwa k (i 1))
  · have e1 : val_main_v50 (F := Ideal) x0 x1 x2 x3 (lidx_main_v51 i ⟨128 + k.val, by omega⟩)
        = val_main_v49 (F := Ideal) x0 x1 x2 x3 (ix2 (i 0) k) := by
      unfold val_main_v50
      exact joined_right _ _ _ _ (i 0) k rfl rfl
    have e2 : ridx_main_v51 i ⟨128 + k.val, by omega⟩ = ix2 ⟨128 + k.val, by omega⟩ (i 1) := funext fun a => Fin.ext (by
      match a with
      | ⟨0, _⟩ => rfl
      | ⟨1, _⟩ => rfl)
    rw [e1, e2]
    exact congrArg (fun z => val_main_v49 (F := Ideal) x0 x1 x2 x3 (ix2 (i 0) k) * z) (hwb k (i 1))

/-! ## (4) The skip product -/

theorem skip_eq (x0 : S50000x128.Idx → EReal) (x6 : S128x2.Idx → EReal) (wc : S128x128.Idx → EReal)
    (hwc : ∀ (k : Fin 128) (q : Fin 2), wc (ix2 k ⟨q.val, by omega⟩) = x6 (ix2 k q))
    (hs : S50000x128.Slices ![0, 0] S50000x2) :
    extractStridedSlice S50000x2 ![0, 0] (rowsTimes x0 wc) hs = val_main_v96 (F := Ideal) x0 x6 := by
  funext i
  have hi1 : (i 1).val < 2 := (i 1).isLt
  rw [firstTwoColumns_apply, val_main_v96_apply]
  unfold rowsTimes
  refine Finset.sum_congr rfl fun k _ => ?_
  have el : lidx_main_v96 i k = ix2 (i 0) k := funext fun a => Fin.ext (by
    match a with
    | ⟨0, _⟩ => rfl
    | ⟨1, _⟩ => rfl)
  have er : ridx_main_v96 i k = ix2 k (i 1) := funext fun a => Fin.ext (by
    match a with
    | ⟨0, _⟩ => rfl
    | ⟨1, _⟩ => rfl)
  rw [el, er]
  exact congrArg (fun z => x0 (ix2 (i 0) k) * z) (hwc k (i 1))

/-! ## The padded matrices hold the rows of the weights -/

/-- Rows `off … off + 127` of `W2`, padded with 126 columns on the right, read at a column below 2. -/
theorem paddedRows_apply (x4 : S256x2.Idx → EReal) (off : Nat) (hsl : S256x2.Slices ![off, 0] S128x2)
    {u : Shape} (v : u.Idx → EReal) (hp : S128x2.Pads ![0, 0] ![0, 126] ![0, 0] S128x128) (hu : 0 < u.numel)
    (k : Fin 128) (q : Fin 2) (K : Fin 256) (hK : K.val = off + k.val) :
    pad S128x128 ![0, 0] ![0, 126] ![0, 0] (extractStridedSlice S128x2 ![off, 0] x4 hsl) v hp hu (ix2 k ⟨q.val, by omega⟩)
      = x4 (ix2 K q) :=
  (pad_apply_of_inside ![0, 0] ![0, 126] ![0, 0] _ v hp hu (ix2 k ⟨q.val, by omega⟩) (ix2 k q) (fun a => by
    match a with
    | ⟨0, _⟩ => show k.val = 0 + k.val * (0 + 1); omega
    | ⟨1, _⟩ => show q.val = 0 + q.val * (0 + 1); omega)).trans
  (extractStridedSlice_apply ![off, 0] x4 hsl (ix2 k q) (ix2 K q) (fun a => by
    match a with
    | ⟨0, _⟩ => show K.val = off + k.val; exact hK
    | ⟨1, _⟩ => show q.val = 0 + q.val; omega))

/-- `W_skip` padded with 126 columns on the right, read at a column below 2. -/
theorem paddedSkip_apply (x6 : S128x2.Idx → EReal) {u : Shape} (v : u.Idx → EReal)
    (hp : S128x2.Pads ![0, 0] ![0, 126] ![0, 0] S128x128) (hu : 0 < u.numel) (k : Fin 128) (q : Fin 2) :
    pad S128x128 ![0, 0] ![0, 126] ![0, 0] x6 v hp hu (ix2 k ⟨q.val, by omega⟩) = x6 (ix2 k q) :=
  pad_apply_of_inside ![0, 0] ![0, 126] ![0, 0] x6 v hp hu (ix2 k ⟨q.val, by omega⟩) (ix2 k q) (fun a => by
    match a with
    | ⟨0, _⟩ => show k.val = 0 + k.val * (0 + 1); omega
    | ⟨1, _⟩ => show q.val = 0 + q.val * (0 + 1); omega)

end Cert.Bridge

end
-- ==== Proof.HostStages.lean ====
/-
  The kernel program's buffers, read at each boundary, as the reference's stages.

  Both programs compute the graph's normalisation the same way: the source and destination rows of the edge list, the
  degree by a scatter-add of ones plus one, its power `-1/2`, the product of the two gathered inverse roots per edge, and
  the square of the inverse root per node. So after the first stretch the kernel's buffers for these hold exactly what the
  reference's stages of the same name hold, as functions of the edge list alone. After the first kernel, its output holds
  the reference's first product; the neighbour sum of the first layer is then the reference's, operation for operation.
  The second kernel's entry arrays are these, the bias laid out as a row, `x`, and the three padded matrices. Every
  buffer a later segment does not write is carried unchanged across it.
-/
import proofs.«108987_j15556371546755_2_alg».proof.Proof.Gen.KernelIdeal.Frame
import proofs.«108987_j15556371546755_2_alg».proof.Proof.Gen.ReferenceIdeal.Read
import proofs.«108987_j15556371546755_2_alg».proof.Proof.Region0
import proofs.«108987_j15556371546755_2_alg».proof.Proof.Region1
import proofs.«108987_j15556371546755_2_alg».proof.Proof.RefBridge
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- The seven argument arrays as launched. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-! ## After the first stretch -/

theorem w1_arg0 : W1 m ρ c (Proc.devRef .tc main_arg0) = a0 m c := by
  show StableHlo.after hostOps0 (W0 m ρ c) (Proc.devRef .tc main_arg0) = _
  dsimp only [hostOps0]
  after_results_simp

theorem w1_arg2 : W1 m ρ c (Proc.devRef .tc main_arg2) = a2 m c := by
  show StableHlo.after hostOps0 (W0 m ρ c) (Proc.devRef .tc main_arg2) = _
  dsimp only [hostOps0]
  after_results_simp

theorem w1_arg3 : W1 m ρ c (Proc.devRef .tc main_arg3) = a3 m c := by
  show StableHlo.after hostOps0 (W0 m ρ c) (Proc.devRef .tc main_arg3) = _
  dsimp only [hostOps0]
  after_results_simp

theorem w1_arg4 : W1 m ρ c (Proc.devRef .tc main_arg4) = a4 m c := by
  show StableHlo.after hostOps0 (W0 m ρ c) (Proc.devRef .tc main_arg4) = _
  dsimp only [hostOps0]
  after_results_simp

theorem w1_arg5 : W1 m ρ c (Proc.devRef .tc main_arg5) = a5 m c := by
  show StableHlo.after hostOps0 (W0 m ρ c) (Proc.devRef .tc main_arg5) = _
  dsimp only [hostOps0]
  after_results_simp

theorem w1_arg6 : W1 m ρ c (Proc.devRef .tc main_arg6) = a6 m c := by
  show StableHlo.after hostOps0 (W0 m ρ c) (Proc.devRef .tc main_arg6) = _
  dsimp only [hostOps0]
  after_results_simp

/-- The source row of the edge list. -/
theorem w1_src : W1 m ρ c (Proc.devRef .tc main_v1) = val_main_v1 (F := Ideal) (a1 m c) := by
  show StableHlo.after hostOps0 (W0 m ρ c) (Proc.devRef .tc main_v1) = _
  dsimp only [hostOps0]
  after_results_simp
  rfl

/-- The destination row of the edge list. -/
theorem w1_dst : W1 m ρ c (Proc.devRef .tc main_v3) = val_main_v3 (F := Ideal) (a1 m c) := by
  show StableHlo.after hostOps0 (W0 m ρ c) (Proc.devRef .tc main_v3) = _
  dsimp only [hostOps0]
  after_results_simp
  rfl

/-- The per-edge product of the two inverse root degrees, as a column. -/
theorem w1_norm : W1 m ρ c (Proc.devRef .tc main_v27) = val_main_v35 (F := Ideal) (a1 m c) := by
  show StableHlo.after hostOps0 (W0 m ρ c) (Proc.devRef .tc main_v27) = _
  dsimp only [hostOps0]
  after_results_simp
  rfl

/-- The per-node squared inverse root degree, laid out as a column. -/
theorem w1_scale : W1 m ρ c (Proc.devRef .tc main_v29)
    = shapeCast S50000x1 (val_main_v41 (F := Ideal) (a1 m c)) shapeCasts_S50000_S50000x1 := by
  show StableHlo.after hostOps0 (W0 m ρ c) (Proc.devRef .tc main_v29) = _
  dsimp only [hostOps0]
  after_results_simp
  rfl

/-! ## After the first kernel -/

/-- Its output holds the reference's first product. -/
theorem w2_hlin : W2 m ρ c (Proc.devRef .tc main_v30) = val_main_v4 (F := Ideal) (a0 m c) (a2 m c) := by
  refine ((W2_arr m ρ c 2).trans (Region0.array_eq (V1 m ρ) c)).trans ?_
  show Region0.rowsTimes (W1 m ρ c (Proc.devRef .tc main_arg0)) (W1 m ρ c (Proc.devRef .tc main_arg2)) = _
  rw [w1_arg0, w1_arg2]
  exact Cert.Bridge.firstProduct_eq _ _

/-- `x` is one of its input arrays: it is left as it was. -/
theorem w2_x : W2 m ρ c (Proc.devRef .tc main_arg0) = a0 m c :=
  ((W2_arr m ρ c 0).trans (((dat0 (V1 m ρ) c).arrAt_in 0 rfl _).trans (A_eq0 (V1 m ρ) c 0))).trans (w1_arg0 m ρ c)

theorem w2_src : W2 m ρ c (Proc.devRef .tc main_v1) = val_main_v1 (F := Ideal) (a1 m c) :=
  (W2_of_ne m ρ c main_v1 (by decide)).trans (w1_src m ρ c)
theorem w2_dst : W2 m ρ c (Proc.devRef .tc main_v3) = val_main_v3 (F := Ideal) (a1 m c) :=
  (W2_of_ne m ρ c main_v3 (by decide)).trans (w1_dst m ρ c)
theorem w2_norm : W2 m ρ c (Proc.devRef .tc main_v27) = val_main_v35 (F := Ideal) (a1 m c) :=
  (W2_of_ne m ρ c main_v27 (by decide)).trans (w1_norm m ρ c)
theorem w2_scale : W2 m ρ c (Proc.devRef .tc main_v29)
    = shapeCast S50000x1 (val_main_v41 (F := Ideal) (a1 m c)) shapeCasts_S50000_S50000x1 :=
  (W2_of_ne m ρ c main_v29 (by decide)).trans (w1_scale m ρ c)
theorem w2_arg3 : W2 m ρ c (Proc.devRef .tc main_arg3) = a3 m c :=
  (W2_of_ne m ρ c main_arg3 (by decide)).trans (w1_arg3 m ρ c)
theorem w2_arg4 : W2 m ρ c (Proc.devRef .tc main_arg4) = a4 m c :=
  (W2_of_ne m ρ c main_arg4 (by decide)).trans (w1_arg4 m ρ c)
theorem w2_arg5 : W2 m ρ c (Proc.devRef .tc main_arg5) = a5 m c :=
  (W2_of_ne m ρ c main_arg5 (by decide)).trans (w1_arg5 m ρ c)
theorem w2_arg6 : W2 m ρ c (Proc.devRef .tc main_arg6) = a6 m c :=
  (W2_of_ne m ρ c main_arg6 (by decide)).trans (w1_arg6 m ρ c)

/-! ## At the second kernel's entry: six short stretches later -/

theorem w8_eq (b : DevRef τ sig) : W8 m ρ c b = StableHlo.after hostOps1_5 (StableHlo.after hostOps1_4
    (StableHlo.after hostOps1_3 (StableHlo.after hostOps1_2 (StableHlo.after hostOps1_1
      (StableHlo.after hostOps1 (W2 m ρ c)))))) b := rfl

theorem w8_hlin : W8 m ρ c (Proc.devRef .tc main_v30) = val_main_v4 (F := Ideal) (a0 m c) (a2 m c) := by
  rw [w8_eq]
  dsimp only [hostOps1_5, hostOps1_4, hostOps1_3, hostOps1_2, hostOps1_1, hostOps1]
  after_results_simp
  exact w2_hlin m ρ c

theorem w8_x : W8 m ρ c (Proc.devRef .tc main_arg0) = a0 m c := by
  rw [w8_eq]
  dsimp only [hostOps1_5, hostOps1_4, hostOps1_3, hostOps1_2, hostOps1_1, hostOps1]
  after_results_simp
  exact w2_x m ρ c

theorem w8_scale : W8 m ρ c (Proc.devRef .tc main_v29)
    = shapeCast S50000x1 (val_main_v41 (F := Ideal) (a1 m c)) shapeCasts_S50000_S50000x1 := by
  rw [w8_eq]
  dsimp only [hostOps1_5, hostOps1_4, hostOps1_3, hostOps1_2, hostOps1_1, hostOps1]
  after_results_simp
  exact w2_scale m ρ c

/-- The bias of the first layer, laid out as a row. -/
theorem w8_bias : W8 m ρ c (Proc.devRef .tc main_v43) = shapeCast S1x128 (a3 m c) shapeCasts_S128_S1x128 := by
  rw [w8_eq]
  dsimp only [hostOps1_5, hostOps1_4, hostOps1_3, hostOps1_2, hostOps1_1, hostOps1]
  after_results_simp
  rw [w2_arg3]
  rfl

/-- The first layer's neighbour sums are the reference's: the same gather of the first product at the source rows, the
    same per-edge scale, the same scatter-add at the destination rows. -/
theorem w8_agg : W8 m ρ c (Proc.devRef .tc main_v42) = val_main_v40 (F := Ideal) (a0 m c) (a1 m c) (a2 m c) := by
  rw [w8_eq]
  dsimp only [hostOps1_5, hostOps1_4, hostOps1_3, hostOps1_2, hostOps1_1, hostOps1]
  after_results_simp
  rw [w2_hlin, w2_src, w2_dst, w2_norm]
  rfl

/-- Rows `0 … 127` of `W2`, padded: the entries at columns 0 and 1. -/
theorem w8_wa (k : Fin 128) (q : Fin 2) :
    W8 m ρ c (Proc.devRef .tc main_v46) (ValueIdx.ix2 k ⟨q.val, by omega⟩) = a4 m c (ValueIdx.ix2 ⟨k.val, by omega⟩ q) := by
  rw [w8_eq]
  dsimp only [hostOps1_5, hostOps1_4, hostOps1_3, hostOps1_2, hostOps1_1, hostOps1]
  after_results_simp
  rw [w2_arg4]
  exact Cert.Bridge.paddedRows_apply (a4 m c) 0 slices_S256x2_S128x2_0_0 _ pads_S128x2_S128x128_000_01260 h_S_ k q
    ⟨k.val, by omega⟩ (by show k.val = 0 + k.val; omega)

/-- Rows `128 … 255` of `W2`, padded: the entries at columns 0 and 1. -/
theorem w8_wb (k : Fin 128) (q : Fin 2) :
    W8 m ρ c (Proc.devRef .tc main_v47) (ValueIdx.ix2 k ⟨q.val, by omega⟩) = a4 m c (ValueIdx.ix2 ⟨128 + k.val, by omega⟩ q) := by
  rw [w8_eq]
  dsimp only [hostOps1_5, hostOps1_4, hostOps1_3, hostOps1_2, hostOps1_1, hostOps1]
  after_results_simp
  rw [w2_arg4]
  exact Cert.Bridge.paddedRows_apply (a4 m c) 128 slices_S256x2_S128x2_128_0 _ pads_S128x2_S128x128_000_01260 h_S_ k q
    ⟨128 + k.val, by omega⟩ rfl

/-- `W_skip`, padded: the entries at columns 0 and 1. -/
theorem w8_wc (k : Fin 128) (q : Fin 2) :
    W8 m ρ c (Proc.devRef .tc main_v48) (ValueIdx.ix2 k ⟨q.val, by omega⟩) = a6 m c (ValueIdx.ix2 k q) := by
  rw [w8_eq]
  dsimp only [hostOps1_5, hostOps1_4, hostOps1_3, hostOps1_2, hostOps1_1, hostOps1]
  after_results_simp
  rw [w2_arg6]
  exact Cert.Bridge.paddedSkip_apply (a6 m c) _ pads_S128x2_S128x128_000_01260 h_S_ k q

theorem w8_src : W8 m ρ c (Proc.devRef .tc main_v1) = val_main_v1 (F := Ideal) (a1 m c) := by
  rw [w8_eq]
  dsimp only [hostOps1_5, hostOps1_4, hostOps1_3, hostOps1_2, hostOps1_1, hostOps1]
  after_results_simp
  exact w2_src m ρ c
theorem w8_dst : W8 m ρ c (Proc.devRef .tc main_v3) = val_main_v3 (F := Ideal) (a1 m c) := by
  rw [w8_eq]
  dsimp only [hostOps1_5, hostOps1_4, hostOps1_3, hostOps1_2, hostOps1_1, hostOps1]
  after_results_simp
  exact w2_dst m ρ c
theorem w8_norm : W8 m ρ c (Proc.devRef .tc main_v27) = val_main_v35 (F := Ideal) (a1 m c) := by
  rw [w8_eq]
  dsimp only [hostOps1_5, hostOps1_4, hostOps1_3, hostOps1_2, hostOps1_1, hostOps1]
  after_results_simp
  exact w2_norm m ρ c
theorem w8_arg5 : W8 m ρ c (Proc.devRef .tc main_arg5) = a5 m c := by
  rw [w8_eq]
  dsimp only [hostOps1_5, hostOps1_4, hostOps1_3, hostOps1_2, hostOps1_1, hostOps1]
  after_results_simp
  exact w2_arg5 m ρ c

/-! ## After the second kernel -/

/-- Its second output at columns 0 and 1 is the reference's product of `[x, h]` with `W2`. -/
theorem w9_pair : extractStridedSlice S50000x2 ![0, 0] (W9 m ρ c (Proc.devRef .tc main_v49_1)) slices_S50000x128_S50000x2_0_0
    = val_main_v51 (F := Ideal) (a0 m c) (a1 m c) (a2 m c) (a3 m c) (a4 m c) := by
  have e : W9 m ρ c (Proc.devRef .tc main_v49_1)
      = Region1.pairOf (W8 m ρ c (Proc.devRef .tc main_v42)) (W8 m ρ c (Proc.devRef .tc main_v30))
          (W8 m ρ c (Proc.devRef .tc main_v29)) (W8 m ρ c (Proc.devRef .tc main_v43)) (W8 m ρ c (Proc.devRef .tc main_arg0))
          (W8 m ρ c (Proc.devRef .tc main_v46)) (W8 m ρ c (Proc.devRef .tc main_v47)) :=
    (W9_arr m ρ c 9).trans (Region1.array9_eq (V8 m ρ) c)
  rw [e, w8_agg, w8_hlin, w8_scale, w8_bias, w8_x]
  exact Cert.Bridge.pair_eq (a0 m c) (a1 m c) (a2 m c) (a3 m c) (a4 m c) _ _ _ _ (w8_wa m ρ c) (w8_wb m ρ c) _

/-- Its third output at columns 0 and 1 is the reference's product of `x` with `W_skip`. -/
theorem w9_skip : extractStridedSlice S50000x2 ![0, 0] (W9 m ρ c (Proc.devRef .tc main_v49_2)) slices_S50000x128_S50000x2_0_0
    = val_main_v96 (F := Ideal) (a0 m c) (a6 m c) := by
  have e : W9 m ρ c (Proc.devRef .tc main_v49_2)
      = Region0.rowsTimes (W8 m ρ c (Proc.devRef .tc main_arg0)) (W8 m ρ c (Proc.devRef .tc main_v48)) :=
    (W9_arr m ρ c 10).trans (Region1.array10_eq (V8 m ρ) c)
  rw [e, w8_x]
  exact Cert.Bridge.skip_eq (a0 m c) (a6 m c) _ (w8_wc m ρ c) _

theorem w9_src : W9 m ρ c (Proc.devRef .tc main_v1) = val_main_v1 (F := Ideal) (a1 m c) :=
  (W9_of_ne m ρ c main_v1 (by decide)).trans (w8_src m ρ c)
theorem w9_dst : W9 m ρ c (Proc.devRef .tc main_v3) = val_main_v3 (F := Ideal) (a1 m c) :=
  (W9_of_ne m ρ c main_v3 (by decide)).trans (w8_dst m ρ c)
theorem w9_norm : W9 m ρ c (Proc.devRef .tc main_v27) = val_main_v35 (F := Ideal) (a1 m c) :=
  (W9_of_ne m ρ c main_v27 (by decide)).trans (w8_norm m ρ c)
theorem w9_arg5 : W9 m ρ c (Proc.devRef .tc main_arg5) = a5 m c :=
  (W9_of_ne m ρ c main_arg5 (by decide)).trans (w8_arg5 m ρ c)
/-- The scale column is one of the second kernel's input arrays: it is left as it was. -/
theorem w9_scale : W9 m ρ c (Proc.devRef .tc main_v29)
    = shapeCast S50000x1 (val_main_v41 (F := Ideal) (a1 m c)) shapeCasts_S50000_S50000x1 :=
  ((W9_arr m ρ c 2).trans (((dat1 (V8 m ρ) c).arrAt_in 2 rfl _).trans (A_eq1 (V8 m ρ) c 2))).trans (w8_scale m ρ c)

end Cert.KernelIdeal.Stages

end
-- ==== Proof.Result.lean ====
/-
  The kernel program's result is the reference's.

  The last stretch takes columns 0 and 1 of the second kernel's two outputs, gathers the first at the source rows,
  scales each edge's row, scatter-adds at the destination rows, adds the node's own row times its squared inverse root
  degree, then the bias, then the skip term. The two sliced outputs are the reference's product of `[x, h]` with `W2` and
  its product of `x` with `W_skip`; the source and destination rows, the per-edge scale and the per-node scale are the
  reference's; and the reference applies the same operations in the same order. The only differences left are
  layouts: a vector made a column, and a vector made a row, by a reshape on one side and by a broadcast along a new
  unit axis on the other, which give the same arrays.
-/
import proofs.«108987_j15556371546755_2_alg».proof.Proof.HostStages

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-- The result buffer at the last boundary is the reference's last stage of the launched arguments. -/
theorem result_eq : W10 m ρ c (Proc.devRef .tc main_v70)
    = val_main_v97 (F := Ideal) (a0 m c) (a1 m c) (a2 m c) (a3 m c) (a4 m c) (a5 m c) (a6 m c) := by
  show StableHlo.after hostOps2 (W9 m ρ c) (Proc.devRef .tc main_v70) = _
  dsimp only [hostOps2]
  after_results_simp
  rw [w9_pair, w9_skip, w9_src, w9_dst, w9_norm, w9_scale, w9_arg5]
  rw [Cert.LibVecLayout.column_eq_broadcast (val_main_v41 (F := Ideal) (a1 m c)) shapeCasts_S50000_S50000x1
      Cert.ReferenceIdeal.Facts₀.bcast_S50000_S50000x1_0]
  have hb := Cert.LibVecLayout.row_eq_broadcast (a5 m c) shapeCasts_S2_S1x2 Cert.ReferenceIdeal.Facts₀.bcast_S2_S1x2_1
  unfold val_main_v97 val_main_v95 val_main_v94 val_main_v93
  rw [← hb]
  rfl

end Cert.KernelIdeal.Stages

end
-- ==== Proof.lean ====
/-
  A two-layer graph convolution with a concatenated skip and a dense residual: the tiled kernel program against the
  plain reference, over the extended reals.

  Both programs normalise the graph the same way (degrees by a scatter-add of ones, inverse square roots, one scale per
  edge and one per node) and both aggregate by a gather at the source rows and a scatter-add at the destination rows.
  They differ in three places. The kernel program computes `x · W1` and the hidden layer `h` tile by tile, 2000 rows at
  a time; a row of either depends on that row of the inputs only, so the tiles are blocks of the whole arrays. Where the
  reference contracts the 256 columns of `[x, h]` with `W2`, the kernel adds `x` times the first 128 rows of `W2` to `h`
  times the last 128: a sum over 256 indices split after the first 128. And it pads the two-column matrices to 128
  columns before multiplying and keeps columns 0 and 1 afterwards, which reads the same entries. Nothing else
  distinguishes the two results, and none of this needs the inputs to be finite.

  `Proof/Bodies.lean` reads the two kernel bodies at an entry; `Proof/Region0.lean` and `Proof/Region1.lean` pass from
  what each grid point writes back to the whole output arrays; `Proof/RefBridge.lean` identifies those arrays, fed the
  reference's stages, with the reference's stages; `Proof/HostStages.lean` and `Proof/Result.lean` follow the buffers
  through the program's segments to the result; `Proof/KernelRun.lean` is the run itself.
-/
import proofs.«108987_j15556371546755_2_alg».proof.Defs
import proofs.«108987_j15556371546755_2_alg».proof.Proof.Gen.Kernel
import proofs.«108987_j15556371546755_2_alg».proof.Proof.Gen.Kernel.Skeleton
import proofs.«108987_j15556371546755_2_alg».proof.Proof.Gen.Kernel.Launch
import proofs.«108987_j15556371546755_2_alg».proof.Proof.Gen.Kernel.Points
import proofs.«108987_j15556371546755_2_alg».proof.Proof.Gen.Kernel.Frame
import proofs.«108987_j15556371546755_2_alg».proof.Proof.Gen.KernelIdeal
import proofs.«108987_j15556371546755_2_alg».proof.Proof.Gen.KernelIdeal.Skeleton
import proofs.«108987_j15556371546755_2_alg».proof.Proof.Gen.KernelIdeal.Launch
import proofs.«108987_j15556371546755_2_alg».proof.Proof.Gen.KernelIdeal.Points
import proofs.«108987_j15556371546755_2_alg».proof.Proof.Gen.KernelIdeal.Frame
import proofs.«108987_j15556371546755_2_alg».proof.Proof.Gen.ReferenceIdeal
import proofs.«108987_j15556371546755_2_alg».proof.Proof.Gen.ReferenceIdeal.Run
import proofs.«108987_j15556371546755_2_alg».proof.Proof.Gen.ReferenceIdeal.Read
import proofs.«108987_j15556371546755_2_alg».proof.Proof.Gen.Pre_finite_inputs
import proofs.«108987_j15556371546755_2_alg».proof.Proof.KernelRun
import proofs.«108987_j15556371546755_2_alg».proof.Proof.Result
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no kernel: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end at the reference's last stage of those arguments. -/
theorem algebraic : Cert.algebraic_KernelIdeal_ReferenceIdeal := by
  intro m ρ m' ρ' _ hagree
  refine ⟨fun c => Cert.ReferenceIdeal.Read.val_main_v97 (F := Ideal) (Cert.KernelIdeal.Stages.a0 m c)
      (Cert.KernelIdeal.Stages.a1 m c) (Cert.KernelIdeal.Stages.a2 m c) (Cert.KernelIdeal.Stages.a3 m c)
      (Cert.KernelIdeal.Stages.a4 m c) (Cert.KernelIdeal.Stages.a5 m c) (Cert.KernelIdeal.Stages.a6 m c), ?_, ?_⟩
  · exact (θ_run Cert.KernelIdeal.defs _ _).mono
      (fun r h c => ⟨(h c).1.trans (Cert.KernelIdeal.Stages.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
